-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  main_v3
-- ==== Kernel.lean ====
abbrev S16x1024x1024 : Shape := ⟨3, ![16, 1024, 1024]⟩
abbrev S1x1024x1024 : Shape := ⟨3, ![1, 1024, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  slices_S1024x1024_o0_0_S256x1024 : S1024x1024.Slices ![0, 0] S256x1024
  reduces_S256x1024_S256 : S256x1024.Reduces [1] S256
  shapeCasts_S256_S256x1 : S256.ShapeCasts S256x1
  broadcasts_S256x1_S256x1024 : S256x1.Broadcasts S256x1024
  inb_S1x1024x1024_S1x256x1024_0_0_0 : ∀ a, (![0, 0, 0] : Fin 3 → Nat) a + S1x256x1024.size a ≤ S1x1024x1024.size a
  h_S1x256x1024 : 0 < S1x256x1024.numel
  shapeCasts_S1x256x1024_S256x1024 : S1x256x1024.ShapeCasts S256x1024
  shapeCasts_S256x1024_S1x256x1024 : S256x1024.ShapeCasts S1x256x1024
  slices_S1024x1024_o256_0_S256x1024 : S1024x1024.Slices ![256, 0] S256x1024
  inb_S1x1024x1024_S1x256x1024_0_256_0 : ∀ a, (![0, 256, 0] : Fin 3 → Nat) a + S1x256x1024.size a ≤ S1x1024x1024.size a
  slices_S1024x1024_o512_0_S256x1024 : S1024x1024.Slices ![512, 0] S256x1024
  inb_S1x1024x1024_S1x256x1024_0_512_0 : ∀ a, (![0, 512, 0] : Fin 3 → Nat) a + S1x256x1024.size a ≤ S1x1024x1024.size a
  slices_S1024x1024_o768_0_S256x1024 : S1024x1024.Slices ![768, 0] S256x1024
  inb_S1x1024x1024_S1x256x1024_0_768_0 : ∀ a, (![0, 768, 0] : Fin 3 → Nat) a + S1x256x1024.size a ≤ S1x1024x1024.size a
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 17
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S_, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S16x1024x1, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S_, .f32⟩
  | .hbm, ⟨12, _⟩ => ⟨S16x1024, .f32⟩
  | .hbm, ⟨13, _⟩ => ⟨S16x1024x1, .f32⟩
  | .hbm, ⟨14, _⟩ => ⟨S16x1024x1024, .f32⟩
  | .hbm, ⟨15, _⟩ => ⟨S16x1024x1024, .f32⟩
  | .hbm, ⟨16, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S16x1024x1024_S16x1024x1024_2_2_1_1_0_0_wf : DotDims.WF S16x1024x1024 S16x1024x1024 S16x1024x1024 [2] [2] [1] [1] [0] [0]

variable [Facts₀]

def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf

class Facts : Prop extends Facts₀ where

variable [Facts]
-- ==== Proof.Spec.lean ====
/-
  The function both programs compute, on the extended reals.

  For a square array `X` of 1024 rows of 1024 entries: the scores of row `r` are its inner products with every
  row, `score X r j = ∑ₖ X r k · X j k`; the row's softmax weights are `exp (score − top)` over their sum, where
  `top` is the largest score of the row (the fold of `max` from −∞); and the result entry `(r, j)` is
  `X r j` times the weight of `j` in row `r`. The whole array of 16 such slabs is `G`: entry `(b, r, j)` is the
  slab function of slab `b`. Nothing here evaluates a float word: −∞ is kept as the value of its word, and the
  extended reals' conventions at the corners are whatever they are, the same on both sides.
-/
import Idealize.ShloMosaic.PureOps.Ideal
import Idealize.ShloMosaic.Lib.ValueIdx

noncomputable section

open scoped BigOperators

namespace Cert.RowSoftmax

open Idealize.ShloMosaic Idealize.ShloMosaic.ValueIdx

/-- The value of the f32 word of −∞: where every row maximum starts. -/
abbrev negInf : EReal := Ideal.ofBits .f32 0xFF800000#32

/-- Inner product of rows `r` and `j`. -/
def score (X : Fin 1024 → Fin 1024 → EReal) (r j : Fin 1024) : EReal := ∑ k : Fin 1024, X r k * X j k

/-- The largest score of row `r`. -/
def top (X : Fin 1024 → Fin 1024 → EReal) (r : Fin 1024) : EReal :=
  (Finset.univ : Finset (Fin 1024)).fold max negInf (fun j => score X r j)

/-- The unnormalised weight of `j` in row `r`. -/
def num (X : Fin 1024 → Fin 1024 → EReal) (r j : Fin 1024) : EReal := Ideal.exp (score X r j - top X r)

/-- The sum of a row's unnormalised weights. -/
def den (X : Fin 1024 → Fin 1024 → EReal) (r : Fin 1024) : EReal := ∑ j : Fin 1024, num X r j

/-- Entry `(r, j)` of the result for one slab: the entry times its softmax weight. -/
def slab (X : Fin 1024 → Fin 1024 → EReal) (r j : Fin 1024) : EReal := X r j * Ideal.div (num X r j) (den X r)

/-- The whole result: entry `(b, r, j)` is the slab function of slab `b` at `(r, j)`. -/
def G (x : (⟨3, ![16, 1024, 1024]⟩ : Shape).Idx → EReal) : (⟨3, ![16, 1024, 1024]⟩ : Shape).Idx → EReal :=
  fun i => slab (fun r k => x (ix3 (i 0) r k)) (i 1) (i 2)

theorem G_apply (x : (⟨3, ![16, 1024, 1024]⟩ : Shape).Idx → EReal) (b : Fin 16) (r j : Fin 1024) :
    G x (ix3 b r j) = slab (fun r k => x (ix3 b r k)) r j := rfl

/-- The maximum of a value with a fold of `max` that starts from it is the fold. -/
theorem max_fold_max_self {ι : Type} (s : Finset ι) (a : EReal) (f : ι → EReal) :
    max a (s.fold max a f) = s.fold max a f :=
  max_eq_right ((Finset.le_fold_max a).mpr (Or.inl le_rfl))

end Cert.RowSoftmax

end
-- ==== Proof.RefIsSpec.lean ====
/-
  The reference computes `G`.

  Read one operation at a time at the coordinates `(b, r, j)`: the batched product of the array with itself
  contracts the last axis of both operands, so its entry is the inner product of rows `r` and `j` of slab `b`;
  the maximum over the last axis is the fold of `max` from −∞ over `j`, and the extra `max` with −∞ that follows
  changes nothing, the fold already starting there; the two broadcasts put the row's value back at every `j`;
  the sum over the last axis starts from the zero word, which is 0. What is left is the slab function, verbatim.
-/
import proofs.«114143_j36575941493295_2_alg».proof.Proof.Gen.ReferenceIdeal.Read
import proofs.«114143_j36575941493295_2_alg».proof.Proof.Spec

noncomputable section

open scoped BigOperators

namespace Cert.RowSoftmax.Ref

open Cert.ReferenceIdeal Cert.ReferenceIdeal.Gen Cert.ReferenceIdeal.Read
open Idealize.ShloMosaic Idealize.ShloMosaic.ValueIdx Cert.RowSoftmax

/-- The argument array's type. -/
abbrev Arr : Type := (⟨S16x1024x1024, .f32⟩ : BufTy).Contents (Elt Ideal)

/-- Slab `b` of the array, as rows of entries. -/
abbrev slabOf (x : Arr) (b : Fin 16) : Fin 1024 → Fin 1024 → EReal := fun r k => x (ix3 b r k)

/-! ## The index maps of the stages, at coordinates -/

theorem lidx_eq (b : Fin 16) (r j k : Fin 1024) : lidx_main_v0 (ix3 b r j) k = ix3 b r k :=
  funext fun a => Fin.ext (by match a with | ⟨0, _⟩ => rfl | ⟨1, _⟩ => rfl | ⟨2, _⟩ => rfl)

theorem ridx_eq (b : Fin 16) (r j k : Fin 1024) : ridx_main_v0 (ix3 b r j) k = ix3 b j k :=
  funext fun a => Fin.ext (by match a with | ⟨0, _⟩ => rfl | ⟨1, _⟩ => rfl | ⟨2, _⟩ => rfl)

theorem idx5_eq (b : Fin 16) (r j : Fin 1024) : idx_main_v5 (ix3 b r j) = ix3 b r (0 : Fin 1) :=
  funext fun a => Fin.ext (by match a with | ⟨0, _⟩ => rfl | ⟨1, _⟩ => rfl | ⟨2, _⟩ => rfl)

theorem idx4_eq (b : Fin 16) (r : Fin 1024) (u : Fin 1) : idx_main_v4 (ix3 b r u) = ix2 b r :=
  funext fun a => Fin.ext (by match a with | ⟨0, _⟩ => rfl | ⟨1, _⟩ => rfl)

theorem idx8_eq (b : Fin 16) (r k : Fin 1024) : idx_main_v8 (ix2 b r) k = ix3 b r k :=
  funext fun a => Fin.ext (by match a with | ⟨0, _⟩ => rfl | ⟨1, _⟩ => rfl | ⟨2, _⟩ => rfl)

theorem idx10_eq (b : Fin 16) (r j : Fin 1024) : idx_main_v10 (ix3 b r j) = ix3 b r (0 : Fin 1) :=
  funext fun a => Fin.ext (by match a with | ⟨0, _⟩ => rfl | ⟨1, _⟩ => rfl | ⟨2, _⟩ => rfl)

theorem idx9_eq (b : Fin 16) (r : Fin 1024) (u : Fin 1) : idx_main_v9 (ix3 b r u) = ix2 b r :=
  funext fun a => Fin.ext (by match a with | ⟨0, _⟩ => rfl | ⟨1, _⟩ => rfl)

/-- The last axis is the one the two reductions drop. -/
theorem reduces_last : S16x1024x1024.Reduces [2] S16x1024 := by decide

/-- Putting `k` back on the dropped axis of `(b, r)` gives `(b, r, k)`. -/
theorem lift_eq (b : Fin 16) (r : Fin 1024) (k : Fin 1024) : reduces_last.lift (ix2 b r) k = ix3 b r k :=
  funext fun a => Fin.ext (by match a with | ⟨0, _⟩ => rfl | ⟨1, _⟩ => rfl | ⟨2, _⟩ => rfl)

/-! ## The stages -/

/-- The batched product: entry `(b, r, j)` is the inner product of rows `r` and `j` of slab `b`. -/
theorem scores_at (x : Arr) (b : Fin 16) (r j : Fin 1024) :
    val_main_v0 (F := Ideal) x (ix3 b r j) = score (slabOf x b) r j := by
  rw [val_main_v0_apply]
  exact Finset.sum_congr rfl fun k _ => by rw [lidx_eq, ridx_eq]

/-- The maximum over the last axis, from −∞. -/
theorem rowmax_at (x : Arr) (b : Fin 16) (r : Fin 1024) :
    val_main_v1 (F := Ideal) x (ix2 b r) = top (slabOf x b) r := by
  unfold val_main_v1
  refine (Host.reduce_eq_fold_single (FloatOps.maximumf (F := Ideal) (φ := .f32)) (val_main_v0 (F := Ideal) x)
    (val_main_cst (F := Ideal)) reducesTo_S16x1024x1024_S16x1024_d2 reduces_last h_S_ (ix2 b r)).trans ?_
  exact congrArg (fun f => (Finset.univ : Finset (Fin 1024)).fold max negInf f)
    (funext fun k => (congrArg (val_main_v0 (F := Ideal) x) (lift_eq b r k)).trans (scores_at x b r k))

/-- The maximum with −∞ that follows is the identity on it. -/
theorem top_at (x : Arr) (b : Fin 16) (r : Fin 1024) :
    val_main_v3 (F := Ideal) x (ix2 b r) = top (slabOf x b) r := by
  rw [val_main_v3_apply, val_main_v2_apply, val_main_cst_0_apply, rowmax_at]
  exact max_fold_max_self _ _ _

/-- The exponential of the score less the row's maximum. -/
theorem num_at (x : Arr) (b : Fin 16) (r j : Fin 1024) :
    val_main_v7 (F := Ideal) x (ix3 b r j) = num (slabOf x b) r j := by
  rw [val_main_v7_apply, val_main_v6_apply, val_main_v5_apply, idx5_eq, val_main_v4_apply, idx4_eq, top_at, scores_at]
  rfl

/-- The sum over the last axis, from the zero word. -/
theorem den_at (x : Arr) (b : Fin 16) (r : Fin 1024) :
    val_main_v8 (F := Ideal) x (ix2 b r) = den (slabOf x b) r := by
  rw [val_main_v8_apply, val_main_cst_1_apply, Ideal.ofBits_def, Ideal.ofBits_zero_f32, zero_add]
  exact Finset.sum_congr rfl fun k _ => by rw [idx8_eq, num_at]

/-- The reference's result is `G` of its argument. -/
theorem result_is_G (x : Arr) : val_main_v12 (F := Ideal) x = G x := by
  funext i
  obtain ⟨b, r, j, rfl⟩ : ∃ (b : Fin 16) (r j : Fin 1024), i = ix3 b r j := ⟨i 0, i 1, i 2, eq_ix3 i⟩
  rw [val_main_v12_apply, val_main_v11_apply, val_main_v10_apply, idx10_eq, val_main_v9_apply, idx9_eq, den_at, num_at]
  rfl

end Cert.RowSoftmax.Ref

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Tile.lean ====
/-
  One tile of the kernel's body: 256 rows of a slab.

  The body cuts the slab `y` (1024 × 1024) into four tiles of 256 rows from row `o` = 0, 256, 512, 768, and for each
  computes the same expression `tile o`: the tile's rows times every row of the slab (a product into the zero
  accumulator that contracts the second axis of both operands, so entry `(q, j)` is the inner product of rows
  `o + q` and `j`), each row's maximum from −∞ and the exponentials' sum from 0, put back along the row by a cast to
  a column and a broadcast, the quotient, and the product with the tile's own rows. The rounded copy `y16` of the
  slab that feeds the product is the slab itself on the extended reals. Read at `(q, j)` the tile is the slab
  function of the specification at row `o + q`: `tile_apply`. The four stored values of the body are
  `tile 0`, `tile 256`, `tile 512` and `tile 768` of the loaded block with its unit axis dropped.
-/
import proofs.«114143_j36575941493295_2_alg».proof.Proof.Gen.KernelIdeal.Skeleton
import proofs.«114143_j36575941493295_2_alg».proof.Proof.Spec
import proofs.«114143_j36575941493295_2_alg».proof.Proof.LibRows
import proofs.«114143_j36575941493295_2_alg».proof.Proof.LibLayout
import Idealize.ShloMosaic.Lib.ValueLayout
import Idealize.ShloMosaic.Lib.ValueIdx
import Idealize.ShloMosaic.PureOps.Ideal.Laws

noncomputable section

open scoped BigOperators

namespace Cert.RowSoftmax.Kernel

open Cert.KernelIdeal Cert.KernelIdeal.Gen
open Idealize.ShloMosaic Idealize.ShloMosaic.ValueIdx Cert.RowSoftmax

/-- The product's dimension numbers: both operands contract their second axis. -/
abbrev D : DotDims S256x1024 S1024x1024 S256x1024 := dot_S256x1024_S1024x1024_S256x1024_1_1_0_0_n_n

section Generic

variable {F : FTy → Type} [FloatOps F]

/-- Each row's maximum from −∞, repeated along the row. -/
def rowTop (s : FVec F S256x1024 .f32) : FVec F S256x1024 .f32 :=
  broadcastTo S256x1024 (shapeCast S256x1 (multiReduction .maximumf [1] S256 s 0xFF800000#32 reduces_S256x1024_S256 (.inl rfl) rfl)
    shapeCasts_S256_S256x1) broadcasts_S256x1_S256x1024

/-- Each row's sum from 0, repeated along the row. -/
def rowSum (p : FVec F S256x1024 .f32) : FVec F S256x1024 .f32 :=
  broadcastTo S256x1024 (shapeCast S256x1 (multiReduction .add [1] S256 p 0x00000000#32 reduces_S256x1024_S256 (.inl rfl) rfl)
    shapeCasts_S256_S256x1) broadcasts_S256x1_S256x1024

/-- The softmax weights of a block of scores, row by row. -/
def weights (s : FVec F S256x1024 .f32) : FVec F S256x1024 .f32 :=
  divf (exp (subf s (rowTop s))) (rowSum (exp (subf s (rowTop s))))

/-- The tile of 256 rows from row `o`: the rows times their weights against the whole slab. -/
def tile (o : Nat) (hs : S1024x1024.Slices ![o, 0] S256x1024) (y : FVec F S1024x1024 .f32) (y16 : FVec F S1024x1024 .bf16) :
    FVec F S1x256x1024 .f32 :=
  shapeCast S1x256x1024
    (mulf (extractStridedSlice S256x1024 ![o, 0] y hs)
      (weights (matmul D none (extractStridedSlice S256x1024 ![o, 0] y16 hs) y16 (constant S256x1024 .f32 0x00000000#32))))
    shapeCasts_S256x1024_S1x256x1024

/-! ## The body's four stored values are the four tiles -/

theorem stored0 (v0 : Vec F S1x1024x1024 .f32) :
    k0_pay5 v0 = tile 0 slices_S1024x1024_o0_0_S256x1024 (k0_pay3 v0) (k0_pay4 v0) := rfl

theorem stored1 (v0 : Vec F S1x1024x1024 .f32) :
    k0_pay6 v0 = tile 256 slices_S1024x1024_o256_0_S256x1024 (k0_pay3 v0) (k0_pay4 v0) := rfl

theorem stored2 (v0 : Vec F S1x1024x1024 .f32) :
    k0_pay1 (k0_pay3 v0) (k0_pay7 v0) (k0_pay8 v0) = tile 512 slices_S1024x1024_o512_0_S256x1024 (k0_pay3 v0) (k0_pay4 v0) := rfl

theorem stored3 (v0 : Vec F S1x1024x1024 .f32) :
    k0_pay2 (k0_pay3 v0) (k0_pay4 v0) = tile 768 slices_S1024x1024_o768_0_S256x1024 (k0_pay3 v0) (k0_pay4 v0) := rfl

end Generic

/-! ## The product read at an index -/

theorem D_lhs0 (j : S256x1024.Idx) (q : D.contr.Idx) : (D.lhsIdx j q 0).val = (j 0).val := by
  unfold DotDims.lhsIdx
  rw [dif_neg (show ¬(0 : Fin S256x1024.rank) ∈ D.lhsBatch by decide),
    dif_pos (show (0 : Fin S256x1024.rank) ∈ D.lhsNonContracting by decide)]
  rfl

theorem D_lhs1 (j : S256x1024.Idx) (q : D.contr.Idx) : (D.lhsIdx j q 1).val = (q ⟨0, by decide⟩).val :=
  D.lhsIdx_val_of_single rfl j q

theorem D_rhs0 (j : S256x1024.Idx) (q : D.contr.Idx) : (D.rhsIdx j q 0).val = (j 1).val := by
  unfold DotDims.rhsIdx
  rw [dif_neg (show ¬(0 : Fin S1024x1024.rank) ∈ D.rhsBatch by decide),
    dif_pos (show (0 : Fin S1024x1024.rank) ∈ D.rhsNonContracting by decide)]
  rfl

theorem D_rhs1 (j : S256x1024.Idx) (q : D.contr.Idx) : (D.rhsIdx j q 1).val = (q ⟨0, by decide⟩).val :=
  D.rhsIdx_val_of_single rfl j q

/-- Entry `(q, j)` of the product into zero: the inner product of row `q` of the left operand and row `j` of the right. -/
theorem gram_apply (a : FVec Ideal S256x1024 .bf16) (w : FVec Ideal S1024x1024 .bf16) (q : Fin 256) (j : Fin 1024) :
    matmul D none a w (constant (F := Ideal) S256x1024 .f32 0x00000000#32) (ix2 q j)
      = ∑ k : Fin 1024, a (ix2 q k) * w (ix2 j k) := by
  show FloatOps.matmul D none a w (constant (F := Ideal) S256x1024 .f32 0x00000000#32) (ix2 q j) = _
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 q j) ((contrEquiv1 D 1024 rfl rfl).symm k) = ix2 q k := funext fun ax => Fin.ext (by
    match ax with
    | ⟨0, _⟩ => exact D_lhs0 _ _
    | ⟨1, _⟩ => exact (D_lhs1 _ _).trans hk)
  have er : D.rhsIdx (ix2 q j) ((contrEquiv1 D 1024 rfl rfl).symm k) = ix2 j k := funext fun ax => Fin.ext (by
    match ax with
    | ⟨0, _⟩ => exact D_rhs0 _ _
    | ⟨1, _⟩ => exact (D_rhs1 _ _).trans hk)
  rw [el, er]

/-! ## The row statistics read at an index -/

theorem rowTop_apply (s : FVec Ideal S256x1024 .f32) (q : Fin 256) (j : Fin 1024) :
    rowTop s (ix2 q j) = (Finset.univ : Finset (Fin 1024)).fold max negInf (fun j' => s (ix2 q j')) := by
  unfold rowTop
  exact (Cert.LibLayout.broadcastTo_a1_ab_apply _ broadcasts_S256x1_S256x1024 q j).trans
    ((Cert.LibLayout.shapeCast_a_a1_apply _ shapeCasts_S256_S256x1 q (0 : Fin 1)).trans
      (Cert.LibRows.rowMax_apply s 0xFF800000#32 reduces_S256x1024_S256 (.inl rfl) rfl q))

theorem rowSum_apply (p : FVec Ideal S256x1024 .f32) (q : Fin 256) (j : Fin 1024) :
    rowSum p (ix2 q j) = ∑ j' : Fin 1024, p (ix2 q j') := by
  unfold rowSum
  exact (Cert.LibLayout.broadcastTo_a1_ab_apply _ broadcasts_S256x1_S256x1024 q j).trans
    ((Cert.LibLayout.shapeCast_a_a1_apply _ shapeCasts_S256_S256x1 q (0 : Fin 1)).trans
      (Cert.LibRows.rowSum_apply p 0x00000000#32 reduces_S256x1024_S256 (.inl rfl) rfl q))

/-- The weights at `(q, j)`: the exponential of the score less the row's maximum, over the row's sum of them. -/
theorem weights_apply (s : FVec Ideal S256x1024 .f32) (q : Fin 256) (j : Fin 1024) :
    weights s (ix2 q j)
      = Ideal.div (Ideal.exp (s (ix2 q j) - (Finset.univ : Finset (Fin 1024)).fold max negInf (fun j' => s (ix2 q j'))))
          (∑ j'' : Fin 1024, Ideal.exp (s (ix2 q j'') - (Finset.univ : Finset (Fin 1024)).fold max negInf (fun j' => s (ix2 q j')))) := by
  have hp : ∀ j'' : Fin 1024, exp (subf s (rowTop s)) (ix2 q j'')
      = Ideal.exp (s (ix2 q j'') - (Finset.univ : Finset (Fin 1024)).fold max negInf (fun j' => s (ix2 q j'))) := fun j'' => by
    show Ideal.exp (s (ix2 q j'') - rowTop s (ix2 q j'')) = _
    rw [rowTop_apply]
  unfold weights
  show Ideal.div (exp (subf s (rowTop s)) (ix2 q j)) (rowSum (exp (subf s (rowTop s))) (ix2 q j)) = _
  rw [rowSum_apply, hp j]
  exact congrArg (Ideal.div _) (Finset.sum_congr rfl fun j'' _ => hp j'')

/-! ## A tile read at an index -/

/-- Entry `(q, j)` of the tile from row `o` is the slab function at row `o + q`. -/
theorem tile_apply (o : Nat) (hs : S1024x1024.Slices ![o, 0] S256x1024) (y : FVec Ideal S1024x1024 .f32)
    (y16 : FVec Ideal S1024x1024 .bf16) (hy : ∀ i, y16 i = y i) (u : Fin 1) (q : Fin 256) (j r : Fin 1024)
    (hr : r.val = o + q.val) :
    tile o hs y y16 (ix3 u q j) = slab (fun a k => y (ix2 a k)) r j := by
  have hsc : ∀ j' : Fin 1024,
      matmul D none (extractStridedSlice S256x1024 ![o, 0] y16 hs) y16 (constant (F := Ideal) S256x1024 .f32 0x00000000#32) (ix2 q j')
        = score (fun a k => y (ix2 a k)) r j' := fun j' => by
    rw [gram_apply]
    exact Finset.sum_congr rfl fun k _ => by rw [slice2_axis0_apply o y16 hs q k r hr, hy, hy]
  unfold tile
  refine (shapeCast_ab_1ab_apply _ shapeCasts_S256x1024_S1x256x1024 u q j).trans ?_
  show extractStridedSlice S256x1024 ![o, 0] y hs (ix2 q j)
      * weights (matmul D none (extractStridedSlice S256x1024 ![o, 0] y16 hs) y16 (constant (F := Ideal) S256x1024 .f32 0x00000000#32)) (ix2 q j) = _
  rw [slice2_axis0_apply o y hs q j r hr, weights_apply]
  simp only [hsc]
  rfl

/-- The loaded block with its unit axis dropped, at `(a, k)`. -/
theorem slab_of_block (x0 : Vec Ideal S1x1024x1024 .f32) (a k : Fin 1024) :
    k0_pay3 x0 (ix2 a k) = x0 (ix3 (0 : Fin 1) a k) := by
  unfold k0_pay3
  exact shapeCast_1ab_ab_apply x0 shapeCasts_S1x1024x1024_S1024x1024 a k

/-- Its rounded copy is the same array on the extended reals. -/
theorem rounded_eq (x0 : Vec Ideal S1x1024x1024 .f32) (i : S1024x1024.Idx) : k0_pay4 x0 i = k0_pay3 x0 i := rfl

end Cert.RowSoftmax.Kernel

end
-- ==== Proof.Blocks.lean ====
/-
  From the body's tiles to the whole result array.

  The grid has one point per slab: point `t` stages block `(t, 0, 0)` of the argument — slab `t`, as a block
  `[1, 1024, 1024]` — and writes back block `(t, 0, 0)` of the result. The body's four stores tile the output
  block by rows 0–255, 256–511, 512–767, 768–1023, and each stored tile is the slab function at its rows
  (`tile_apply`), so the block the body leaves is the slab function of the loaded block at every `(r, j)`
  (`block_apply`). Read through the point's block, that is block `t` of `G` of the argument (`written_is_G`); the
  16 blocks cover the array, so the result array ends holding `G` of the argument (`result_is_G`, `run`).
-/
import proofs.«114143_j36575941493295_2_alg».proof.Proof.Gen.KernelIdeal.Value
import proofs.«114143_j36575941493295_2_alg».proof.Proof.Tile

set_option maxRecDepth 16384

noncomputable section

open scoped BigOperators

namespace Cert.RowSoftmax.Kernel

open Cert.KernelIdeal Cert.KernelIdeal.Gen Cert.KernelIdeal.Value
open Idealize.ShloMosaic Idealize.ShloMosaic.TcCoe Idealize.SL.Sem Idealize.ShloMosaic.ValueIdx Cert.RowSoftmax
open Idealize.ShloMosaic.Pipeline (Dat)

/-! ## The block the body leaves -/

/-- A stored tile from row `o`, at its own index `x`, is the slab function of the loaded block at the index of the
    output block that the store's rectangle puts `x` at: row `o + x 1`, column `x 2`. -/
theorem piece_apply (x0 : Vec Ideal S1x1024x1024 .f32) (o : Nat) (hs : S1024x1024.Slices ![o, 0] S256x1024)
    (inb : ∀ a, (![0, o, 0] : Fin 3 → Nat) a + S1x256x1024.size a ≤ S1x1024x1024.size a) (x : S1x256x1024.Idx) :
    tile o hs (k0_pay3 (View.ld x0 r0_0)) (k0_pay4 (View.ld x0 r0_0)) x
      = slab (fun a k => x0 (ix3 (0 : Fin 1) a k))
          ((Rect.unit (s := S1x1024x1024) ![0, o, 0] S1x256x1024.size inb).emb x 1)
          ((Rect.unit (s := S1x1024x1024) ![0, o, 0] S1x256x1024.size inb).emb x 2) := by
  obtain ⟨u, q, j, rfl⟩ : ∃ (u : Fin 1) (q : Fin 256) (j : Fin 1024), x = ix3 u q j := ⟨x 0, x 1, x 2, eq_ix3 x⟩
  have hb : o + 256 ≤ 1024 := inb 1
  have hz : (![0, 0, 0] : Fin 3 → Nat) = fun _ => 0 := funext fun a => by fin_cases a <;> rfl
  have hld : View.ld x0 r0_0 = x0 := View.ld_unit_zero (S := S1x1024x1024) hz _ x0
  have hX : (fun (a k : Fin 1024) => k0_pay3 (View.ld x0 r0_0) (ix2 a k)) = fun a k => x0 (ix3 (0 : Fin 1) a k) :=
    funext fun a => funext fun k => by rw [slab_of_block, hld]
  have e1 : (Rect.unit (s := S1x1024x1024) ![0, o, 0] S1x256x1024.size inb).emb (ix3 u q j) 1
      = (⟨o + q.val, by have := q.isLt; omega⟩ : Fin 1024) := Fin.ext (by
    show o + 1 * q.val = o + q.val; omega)
  have e2 : (Rect.unit (s := S1x1024x1024) ![0, o, 0] S1x256x1024.size inb).emb (ix3 u q j) 2 = j := Fin.ext (by
    show 0 + 1 * j.val = j.val; omega)
  rw [e1, e2, ← hX]
  exact tile_apply o hs _ _ (rounded_eq _) u q j ⟨o + q.val, by have := q.isLt; omega⟩ rfl

/-- What the body leaves in the output block, from the loaded block: the slab function at every `(r, j)`. -/
theorem block_apply (x0 : Vec Ideal S1x1024x1024 .f32) (y : S1x1024x1024.Idx) :
    out0_1 x0 y = slab (fun a k => x0 (ix3 (0 : Fin 1) a k)) (y 1) (y 2) := by
  unfold out0_1
  refine View.canon_apply_of_pieces (Val := Elt Ideal) (S := S1x1024x1024) (e := .f32) (fun y : S1x1024x1024.Idx => slab (fun a k => x0 (ix3 (0 : Fin 1) a k)) (y 1) (y 2)) _ ?_ y
    (cover0_1 _ _ _ _ y)
  intro p hp
  simp only [List.mem_cons, List.not_mem_nil, or_false] at hp
  rcases hp with rfl | rfl | rfl | rfl
  · intro x
    exact (congrFun (stored3 _) x).trans (piece_apply x0 768 slices_S1024x1024_o768_0_S256x1024 inb_S1x1024x1024_S1x256x1024_0_768_0 x)
  · intro x
    exact (congrFun (stored2 _) x).trans (piece_apply x0 512 slices_S1024x1024_o512_0_S256x1024 inb_S1x1024x1024_S1x256x1024_0_512_0 x)
  · intro x
    exact (congrFun (stored1 _) x).trans (piece_apply x0 256 slices_S1024x1024_o256_0_S256x1024 inb_S1x1024x1024_S1x256x1024_0_256_0 x)
  · intro x
    exact (congrFun (stored0 _) x).trans (piece_apply x0 0 slices_S1024x1024_o0_0_S256x1024 inb_S1x1024x1024_S1x256x1024_0_0_0 x)

/-! ## One point's block of the result -/

/-- The slab function of a block that holds slab `b` of an array, at the index that `(b, y 1, y 2)` names, is `G`
    of the array there. -/
theorem slab_block (A : S16x1024x1024.Idx → EReal) (B : S1x1024x1024.Idx → EReal) (b : Fin 16)
    (hB : ∀ a k : Fin 1024, B (ix3 (0 : Fin 1) a k) = A (ix3 b a k)) (r j : Fin 1024) :
    slab (fun a k => B (ix3 (0 : Fin 1) a k)) r j = G A (ix3 b r j) := by
  rw [G_apply, show (fun (a k : Fin 1024) => B (ix3 (0 : Fin 1) a k)) = fun a k => A (ix3 b a k) from
    funext fun a => funext fun k => hB a k]

variable (m : (ℓ : Loc nD τ sig) → Buf (Elt Ideal) ℓ) (ρ : Dev nD → PrngReg)

/-- The printed index maps over the grid: both windows move along the first axis together, at block `t` of 16, and
    stay at block 0 of the other two axes. -/
theorem index_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 ∧ win0_1.index t (0 : Fin 3) ≤ 15 :=
  (by decide +kernel : ∀ t : Fin grid0.N, _)

/-- Every slab's block is some point's. -/
theorem index_onto : ∀ q0 : Fin 16, ∃ t : Fin cfg0.N, win0_1.index t = ![q0.val, 0, 0] :=
  (by decide +kernel : ∀ q0 : Fin 16, ∃ t : Fin grid0.N, win0_1.index t = ![q0.val, 0, 0])

/-- What point `t` writes back is block `t` of `G` of the argument array. -/
theorem written_is_G (c : Dev nD) (t : Fin cfg0.N) :
    (dats m 0 c).flushed 1 t = ((cfg0.win 1).blk t).view.read (Elt Ideal) (G (V m c main_arg0)) := by
  rw [flushed1]
  obtain ⟨e0, e1, e2, e3, e4, e5⟩ := index_facts t
  funext y
  show out0_1 (iblk m c 0 t) y = G (V m c main_arg0) (((cfg0.win 1).blk t).view.emb y)
  refine (block_apply (iblk m c 0 t) y).trans ?_
  have hy0 : (y 0).val < 1 := (y 0).isLt
  have hy1 : (y 1).val < 1024 := (y 1).isLt
  have hy2 : (y 2).val < 1024 := (y 2).isLt
  have hemb : ((cfg0.win 1).blk t).view.emb y
      = ix3 (⟨win0_1.index t (0 : Fin 3), by omega⟩ : Fin 16) (⟨(y 1).val, hy1⟩ : Fin 1024) (⟨(y 2).val, hy2⟩ : Fin 1024) := by
    funext ax; apply Fin.ext
    match ax with
    | ⟨0, _⟩ => show win0_1.index t (0 : Fin 3) * 1 + 1 * (y 0).val = win0_1.index t (0 : Fin 3); omega
    | ⟨1, _⟩ => show win0_1.index t (1 : Fin 3) * 1024 + 1 * (y 1).val = (y 1).val; omega
    | ⟨2, _⟩ => show win0_1.index t (2 : Fin 3) * 1024 + 1 * (y 2).val = (y 2).val; omega
  rw [hemb]
  refine slab_block (V m c main_arg0) (iblk m c 0 t) ⟨win0_1.index t (0 : Fin 3), by omega⟩ (fun a k => ?_) ⟨(y 1).val, hy1⟩ ⟨(y 2).val, hy2⟩
  show V m c main_arg0 (((cfg0.win 0).blk t).view.emb (ix3 (0 : Fin 1) a k)) = V m c main_arg0 (ix3 _ a k)
  refine congrArg (V m c main_arg0) (funext fun ax => Fin.ext ?_)
  match ax with
  | ⟨0, _⟩ => show win0_0.index t (0 : Fin 3) * 1 + 1 * 0 = win0_1.index t (0 : Fin 3); omega
  | ⟨1, _⟩ => show win0_0.index t (1 : Fin 3) * 1024 + 1 * a.val = a.val; omega
  | ⟨2, _⟩ => show win0_0.index t (2 : Fin 3) * 1024 + 1 * k.val = k.val; omega

/-- An index of the result array is in point `t`'s block iff each coordinate is in the block's range on its axis. -/
theorem mem_block (t : Fin cfg0.N) (i : S16x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Every index of the result array is in the block of the point that stages its slab. -/
theorem covered (i : S16x1024x1024.Idx) :
    ∃ t : Fin cfg0.N, (cfg0.win 1).flush t = true ∧ i ∈ ((cfg0.win 1).blk t).view.set := by
  have hi0 : (i 0).val < 16 := (i 0).isLt
  have hi1 : (i 1).val < 1024 := (i 1).isLt
  have hi2 : (i 2).val < 1024 := (i 2).isLt
  obtain ⟨t, ht⟩ := index_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- The result array after the run is `G` of the argument array. -/
theorem result_is_G (c : Dev nD) : (dats m 0 c).arrAt 1 cfg0.N = G (m ((c : Thread nD τ).loc main_arg0)) :=
  (dats m 0 c).arrAt_eq_of_cover 1 (G (V m c main_arg0)) (fun t _ => written_is_G m c t) covered

/-- The kernel's run: the result at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (result_is_G m c), (h c).2⟩) (run_blocks m ρ)

end Cert.RowSoftmax.Kernel

end
-- ==== Proof.lean ====
/-
  A kernel against its reference: for an array `x` of 16 slabs of 1024 × 1024 finite floats, both compute

      out[b, r, j] = x[b, r, j] · softmax_j (Σₖ x[b, r, k] · x[b, j, k])

  on the extended reals — the scores of row `r` against every row of its own slab, the row-wise softmax of the scores
  (exponentials of the score less the row's largest score, over their sum), times the entry itself.

  The kernel takes one slab per grid point, rounds it to bf16 for the product (the identity on the extended reals),
  and computes the rows in four tiles of 256, each tile by a matrix product against the whole slab, a row maximum from
  −∞, a row sum from 0 and a division; the reference computes one batched product, a maximum and a sum over the last
  axis, and joins the maximum once more with −∞ (the identity, the maximum having started there). Sums and maxima over
  a finite index set do not depend on their order on the extended reals, so the two agree entry by entry whatever the
  entries are: the precondition (finite inputs) is not used by the value argument.

  The specification `G` is in Spec.lean; the reference is `G` of its argument by RefIsSpec.lean (over the generated
  stage-by-stage reading of its run); a tile is the slab function at its rows by Tile.lean; the blocks the grid points
  write back are the blocks of `G`, and cover the array, by Blocks.lean (over the generated blockwise value leg).
  The three frames are the generated ones; no rewrite was applied when the kernel was idealized, so there is nothing to
  preserve.
-/
import proofs.«114143_j36575941493295_2_alg».proof.Defs
import proofs.«114143_j36575941493295_2_alg».proof.Proof.Gen.Kernel
import proofs.«114143_j36575941493295_2_alg».proof.Proof.Gen.Kernel.Skeleton
import proofs.«114143_j36575941493295_2_alg».proof.Proof.Gen.Kernel.Launch
import proofs.«114143_j36575941493295_2_alg».proof.Proof.Gen.Kernel.Points
import proofs.«114143_j36575941493295_2_alg».proof.Proof.Gen.Kernel.Frame
import proofs.«114143_j36575941493295_2_alg».proof.Proof.Gen.KernelIdeal
import proofs.«114143_j36575941493295_2_alg».proof.Proof.Gen.KernelIdeal.Skeleton
import proofs.«114143_j36575941493295_2_alg».proof.Proof.Gen.KernelIdeal.Launch
import proofs.«114143_j36575941493295_2_alg».proof.Proof.Gen.KernelIdeal.Points
import proofs.«114143_j36575941493295_2_alg».proof.Proof.Gen.KernelIdeal.Frame
import proofs.«114143_j36575941493295_2_alg».proof.Proof.Gen.ReferenceIdeal
import proofs.«114143_j36575941493295_2_alg».proof.Proof.Gen.KernelIdeal.Value
import proofs.«114143_j36575941493295_2_alg».proof.Proof.Gen.ReferenceIdeal.Run
import proofs.«114143_j36575941493295_2_alg».proof.Proof.Gen.ReferenceIdeal.Read
import proofs.«114143_j36575941493295_2_alg».proof.Proof.Gen.Pre_finite_inputs
import proofs.«114143_j36575941493295_2_alg».proof.Proof.RefIsSpec
import proofs.«114143_j36575941493295_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, both programs end with `G` of the argument in their result. -/
theorem algebraic : Cert.algebraic_KernelIdeal_ReferenceIdeal := by
  intro m ρ m' ρ' _ hagree
  refine ⟨fun c => Cert.RowSoftmax.G (m ((c.tc : Thread Cert.KernelIdeal.nD Cert.KernelIdeal.τ).loc Cert.KernelIdeal.main_arg0)),
    Cert.RowSoftmax.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RowSoftmax.Ref.result_is_G, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
